-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S64 .f32) (main_arg6 : IVec S1600000 32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S1600000 32 := broadcastInDim S1600000 ![] bcast_S_S1600000 main_c_8
  let main_v25 : IVec S1600000 1 := cmpi .sge main_arg6 main_v24
  let main_c_9 : IVec S_ 1 := constantI S_ 1 1#1
  let main_v26 : IVec S_ 1 := (fun x v => Host.reduce IntOp.andi x v reducesTo_S1600000_S_d0 h_S_) main_v25 main_c_9
  let main_v27 : IVec S_ 1 := andi main_v23 main_v26
  main_v27

def fn {F : FTy → Type} [FloatOps F] (main_arg0 : FVec F S100000x64 .f32) (main_arg1 : FVec F S64x256 .f32) (main_arg2 : FVec F S256 .f32) (main_arg3 : FVec F S256x64 .f32) (main_arg4 : FVec F S64 .f32) (main_arg5 : IVec S1600000 32) (main_arg6 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg6 main_v13 main_v16
-- ==== Kernel.lean ====
abbrev S100000x64 : Shape := ⟨2, ![100000, 64]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S5000x64 : Shape := ⟨2, ![5000, 64]⟩
abbrev S5000x256 : Shape := ⟨2, ![5000, 256]⟩
abbrev S1x256 : Shape := ⟨2, ![1, 256]⟩
abbrev S1x64 : Shape := ⟨2, ![1, 64]⟩

abbrev nBuf : Space → Nat
  | .hbm => 29
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S64x256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S100000x64, .f32⟩
  | .hbm, ⟨28, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x256, .f32⟩
  | .local _ .vmem, ⟨3, _⟩ => ⟨S256, .f32⟩
  | .local _ .vmem, ⟨4, _⟩ => ⟨S256x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x256_S5000x256_1_0_0_1_n_n_wf : DotDims.WF S5000x64 S64x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v15) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x256 : Shape := ⟨2, ![100000, 256]⟩
abbrev S1x256 : Shape := ⟨2, ![1, 256]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .f32⟩
  | .hbm, ⟨21, _⟩ => ⟨S100000x64, .f32⟩
  | .hbm, ⟨22, _⟩ => ⟨S100000x64, .f32⟩
  | .hbm, ⟨23, _⟩ => ⟨S100000x64, .f32⟩
  | .hbm, ⟨24, _⟩ => ⟨S100000x256, .f32⟩
  | .hbm, ⟨25, _⟩ => ⟨S1x256, .f32⟩
  | .hbm, ⟨26, _⟩ => ⟨S100000x256, .f32⟩
  | .hbm, ⟨27, _⟩ => ⟨S100000x256, .f32⟩
  | .hbm, ⟨28, _⟩ => ⟨S_, .f32⟩
  | .hbm, ⟨29, _⟩ => ⟨S100000x256, .f32⟩
  | .hbm, ⟨30, _⟩ => ⟨S100000x256, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x256_S100000x256_1_0_0_1_n_n_wf : DotDims.WF S100000x64 S64x256 S100000x256 [1] [0] [0] [1] [] []
  dot_S100000x256_S256x64_S100000x64_1_0_0_1_n_n_wf : DotDims.WF S100000x256 S256x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.GinLayers.lean ====
/-
  The dense part of a GIN layer, as a function of whole arrays read at an index, over the extended reals — stated for
  any extents.

  `layersAt x wa ba wb bb r j` is entry `(r, j)` of `relu (x · wa + ba) · wb + bb`: for every hidden unit `k` the inner
  product of row `r` of `x` with column `k` of `wa` plus the bias `ba k`, clamped below at zero; those multiplied into
  column `j` of `wb` and summed; plus the bias `bb j`.

  A row block's kernel body (two matrix products into the zero accumulator, the operands narrowed to bf16 on the way
  in — the identity on extended reals —, each bias made a row and broadcast down the block) reads, at an index, as this
  sum. No law of the extended reals is needed: the summands and their order agree.
-/
import proofs.«140478_j14053132992699_2_alg».proof.Proof.LibRowOps

noncomputable section

open scoped BigOperators

namespace Cert.Gin

open Idealize.ShloMosaic Idealize.ShloMosaic.ValueIdx Idealize.ShloMosaic.RowOps

/-- Entry `(r, j)` of `relu (x · wa + ba) · wb + bb`, the biases vectors. -/
def layersAt {R A B D : Nat} (x : FVec Ideal (⟨2, ![R, A]⟩ : Shape) .f32) (wa : FVec Ideal (⟨2, ![A, B]⟩ : Shape) .f32)
    (ba : FVec Ideal (⟨1, ![B]⟩ : Shape) .f32) (wb : FVec Ideal (⟨2, ![B, D]⟩ : Shape) .f32)
    (bb : FVec Ideal (⟨1, ![D]⟩ : Shape) .f32) (r : Fin R) (j : Fin D) : Ideal .f32 :=
  (∑ k : Fin B, max (∑ l : Fin A, x (ix2 r l) * wa (ix2 l k) + ba (ix1 k)) (Ideal.ofBits .f32 0x00000000#32) * wb (ix2 k j))
    + bb (ix1 j)

/-- Entry `(r, j)` reads row `r` of the activations, the first weights and bias whole, column `j` of the second weights
    and entry `j` of the second bias: two instances (the activations of any heights) that agree there are equal. -/
theorem layersAt_congr {R R' A B D : Nat} {x : FVec Ideal (⟨2, ![R, A]⟩ : Shape) .f32} {x' : FVec Ideal (⟨2, ![R', A]⟩ : Shape) .f32}
    {wa wa' : FVec Ideal (⟨2, ![A, B]⟩ : Shape) .f32} {ba ba' : FVec Ideal (⟨1, ![B]⟩ : Shape) .f32}
    {wb wb' : FVec Ideal (⟨2, ![B, D]⟩ : Shape) .f32} {bb bb' : FVec Ideal (⟨1, ![D]⟩ : Shape) .f32}
    {r : Fin R} {r' : Fin R'} {j j' : Fin D}
    (hx : ∀ l, x (ix2 r l) = x' (ix2 r' l)) (hwa : ∀ l k, wa (ix2 l k) = wa' (ix2 l k))
    (hba : ∀ k, ba (ix1 k) = ba' (ix1 k)) (hwb : ∀ k, wb (ix2 k j) = wb' (ix2 k j'))
    (hbb : bb (ix1 j) = bb' (ix1 j')) :
    layersAt x wa ba wb bb r j = layersAt x' wa' ba' wb' bb' r' j' := by
  unfold layersAt
  simp only [hx, hwa, hba, hwb, hbb]

/-- The body on one row block: both products into the zero accumulator, the operands narrowed to bf16 (nothing, on
    extended reals), each bias vector made a row and broadcast down the block, the clamp between the two products. -/
theorem layers_body_apply {R A B D : Nat}
    (d1 : DotDims (⟨2, ![R, A]⟩ : Shape) ⟨2, ![A, B]⟩ ⟨2, ![R, B]⟩) (hd1 : ∃ wf, d1 = plainDims wf)
    (d2 : DotDims (⟨2, ![R, B]⟩ : Shape) ⟨2, ![B, D]⟩ ⟨2, ![R, D]⟩) (hd2 : ∃ wf, d2 = plainDims wf)
    (x : FVec Ideal (⟨2, ![R, A]⟩ : Shape) .f32) (wa : FVec Ideal (⟨2, ![A, B]⟩ : Shape) .f32)
    (ba : FVec Ideal (⟨1, ![B]⟩ : Shape) .f32) (wb : FVec Ideal (⟨2, ![B, D]⟩ : Shape) .f32)
    (bb : FVec Ideal (⟨1, ![D]⟩ : Shape) .f32)
    (hx : (⟨2, ![R, A]⟩ : Shape).ShapeCasts ⟨2, ![R, A]⟩)
    (hba : (⟨1, ![B]⟩ : Shape).ShapeCasts ⟨2, ![1, B]⟩) (hbb : (⟨1, ![D]⟩ : Shape).ShapeCasts ⟨2, ![1, D]⟩)
    (hc1 : (⟨2, ![1, B]⟩ : Shape).Broadcasts ⟨2, ![R, B]⟩) (hc2 : (⟨2, ![1, D]⟩ : Shape).Broadcasts ⟨2, ![R, D]⟩)
    (hlt : FTy.bf16.bits < FTy.f32.bits) (r : Fin R) (j : Fin D) :
    addf (matmul d2 none
        (truncf .bf16 (maximumf (addf (matmul d1 none (truncf .bf16 (shapeCast _ x hx) hlt) (truncf .bf16 wa hlt)
            (constant _ .f32 0x00000000#32)) (broadcastTo _ (shapeCast _ ba hba) hc1))
          (broadcast _ (Scalar.ofBits (F := Ideal) .f32 0x00000000#32))) hlt)
        (truncf .bf16 wb hlt) (constant _ .f32 0x00000000#32)) (broadcastTo _ (shapeCast _ bb hbb) hc2) (ix2 r j)
      = layersAt x wa ba wb bb r j := by
  rw [addf_apply, broadcastTo_1b_ab_apply, shapeCast_a_1a_apply, shapeCast_self]
  unfold matmul
  rw [matmul_zero_plain_apply d2 hd2]
  unfold layersAt
  refine congrArg₂ (· + ·) (Finset.sum_congr rfl fun k _ => ?_) rfl
  rw [truncf_apply, truncf_apply, maximumf_apply, addf_apply, broadcast_apply, broadcastTo_1b_ab_apply, shapeCast_a_1a_apply,
    matmul_zero_plain_apply d1 hd1]
  rfl

end Cert.Gin

end
-- ==== Proof.GinBody.lean ====
/-
  The kernel body's one store, read at an index: on a block of 5000 rows of the aggregated features it writes the two
  dense stages `layersAt` of that block and the (whole) parameters.
-/
import proofs.«140478_j14053132992699_2_alg».proof.Proof.Gen.KernelIdeal.Skeleton
import proofs.«140478_j14053132992699_2_alg».proof.Proof.GinLayers

noncomputable section

namespace Cert.Gin.Body

open Cert.KernelIdeal Cert.KernelIdeal.Gen
open Idealize.ShloMosaic Idealize.ShloMosaic.ValueIdx Cert.Gin

/-- Entry `(r, j)` of the stored block is `layersAt` of the loaded row block and parameters. -/
theorem pay_apply (v0 : Vec Ideal S5000x64 .f32) (v3 : Vec Ideal S64x256 .f32) (v6 : Vec Ideal S256 .f32)
    (v13 : Vec Ideal S256x64 .f32) (v16 : Vec Ideal S64 .f32) (r : Fin 5000) (j : Fin 64) :
    k0_pay1 (F := Ideal) v0 v3 v6 v13 v16 (ix2 r j) = layersAt v0 v3 v6 v13 v16 r j := by
  unfold k0_pay1
  exact layers_body_apply dot_S5000x64_S64x256_S5000x256_1_0_0_1_n_n ⟨_, rfl⟩ dot_S5000x256_S256x64_S5000x64_1_0_0_1_n_n ⟨_, rfl⟩
    v0 v3 v6 v13 v16 _ _ _ _ _ _ r j

end Cert.Gin.Body

end
-- ==== Proof.GinBlocks.lean ====
/-
  From row blocks to the whole output. The grid has 20 points; point `t` stages rows `5000 t … 5000 t + 4999` of the
  aggregated features (all 64 columns) and the four parameter arrays whole, and writes rows `5000 t … 5000 t + 4999` of the
  output. What it writes is the two dense stages of its row block, which entry by entry is the two dense stages of the whole
  aggregated array (an entry reads one row); the 20 blocks tile the 100000 rows, so after the run the output array is that
  function of the arrays the region found.
-/
import proofs.«140478_j14053132992699_2_alg».proof.Proof.Gen.KernelIdeal.Value
import proofs.«140478_j14053132992699_2_alg».proof.Proof.GinBody

set_option maxRecDepth 16384

noncomputable section

namespace Cert.Gin.Blocks

open Cert.KernelIdeal Cert.KernelIdeal.Gen
open Idealize.ShloMosaic Idealize.ShloMosaic.TcCoe Idealize.SL.Sem Idealize.ShloMosaic.ValueIdx Cert.Gin
open Idealize.ShloMosaic.Pipeline (Dat)

variable (m : (ℓ : Loc nD τ sig) → Buf (Elt Ideal) ℓ)

theorem off2 : (![0, 0] : Fin 2 → Nat) = fun _ => 0 := funext fun a => by fin_cases a <;> rfl
theorem off1 : (![0] : Fin 1 → Nat) = fun _ => 0 := funext fun a => by fin_cases a; rfl

/-- The output as one function of the arrays the region finds: entry `i` is the two dense stages at row `i 0`, column `i 1`. -/
def whole (c : Dev nD) : S100000x64.Idx → EReal := fun i =>
  layersAt (R := 100000) (A := 64) (B := 256) (D := 64) (V m c main_v15) (V m c main_arg1) (V m c main_arg2) (V m c main_arg3)
    (V m c main_arg4) ⟨(i 0).val, (i 0).isLt⟩ ⟨(i 1).val, (i 1).isLt⟩

/-- The index maps over the grid: the first operand and the output move down one row block per point; the parameters stay. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Every row block of the output is some point's. -/
theorem index_onto : ∀ q : Fin 20, ∃ t : Fin cfg0.N, win0_5.index t = ![q.val, 0] :=
  (by decide +kernel : ∀ q : Fin 20, ∃ t : Fin grid0.N, win0_5.index t = ![q.val, 0])

/-! ## The blocks the body loads, read where they lie in their arrays -/

theorem read_rows (c : Dev nD) (t : Fin cfg0.N) (p : Fin 5000) (l : Fin 64) (r : Fin 100000) (hr : r.val = t.val * 5000 + p.val) :
    iblk m c 0 t (ix2 p l) = V m c main_v15 (ix2 r l) := by
  show V m c main_v15 (((cfg0.win 0).blk t).view.emb (ix2 p l)) = V m c main_v15 (ix2 r l)
  obtain ⟨a0, a1, -⟩ := index_maps t
  have he : ((cfg0.win 0).blk t).view.emb (ix2 p l) = ix2 r l := by
    funext a; apply Fin.ext
    match a with
    | ⟨0, _⟩ => show win0_0.index t (0 : Fin 2) * 5000 + 1 * p.val = r.val; omega
    | ⟨1, _⟩ => show win0_0.index t (1 : Fin 2) * 64 + 1 * l.val = l.val; omega
  rw [he]

theorem read_w1 (c : Dev nD) (t : Fin cfg0.N) (l : Fin 64) (k : Fin 256) :
    iblk m c 1 t (ix2 l k) = V m c main_arg1 (ix2 l k) := by
  show V m c main_arg1 (((cfg0.win 1).blk t).view.emb (ix2 l k)) = V m c main_arg1 (ix2 l k)
  obtain ⟨-, -, b0, b1, -⟩ := index_maps t
  have he : ((cfg0.win 1).blk t).view.emb (ix2 l k) = ix2 l k := by
    funext a; apply Fin.ext
    match a with
    | ⟨0, _⟩ => show win0_1.index t (0 : Fin 2) * 64 + 1 * l.val = l.val; omega
    | ⟨1, _⟩ => show win0_1.index t (1 : Fin 2) * 256 + 1 * k.val = k.val; omega
  rw [he]

theorem read_b1 (c : Dev nD) (t : Fin cfg0.N) (k : Fin 256) :
    iblk m c 2 t (ix1 k) = V m c main_arg2 (ix1 k) := by
  show V m c main_arg2 (((cfg0.win 2).blk t).view.emb (ix1 k)) = V m c main_arg2 (ix1 k)
  obtain ⟨-, -, -, -, c0, -⟩ := index_maps t
  have he : ((cfg0.win 2).blk t).view.emb (ix1 k) = ix1 k := by
    funext a; apply Fin.ext
    match a with
    | ⟨0, _⟩ => show win0_2.index t (0 : Fin 1) * 256 + 1 * k.val = k.val; omega
  rw [he]

theorem read_w2 (c : Dev nD) (t : Fin cfg0.N) (k : Fin 256) (j : Fin 64) :
    iblk m c 3 t (ix2 k j) = V m c main_arg3 (ix2 k j) := by
  show V m c main_arg3 (((cfg0.win 3).blk t).view.emb (ix2 k j)) = V m c main_arg3 (ix2 k j)
  obtain ⟨-, -, -, -, -, d0, d1, -⟩ := index_maps t
  have he : ((cfg0.win 3).blk t).view.emb (ix2 k j) = ix2 k j := by
    funext a; apply Fin.ext
    match a with
    | ⟨0, _⟩ => show win0_3.index t (0 : Fin 2) * 256 + 1 * k.val = k.val; omega
    | ⟨1, _⟩ => show win0_3.index t (1 : Fin 2) * 64 + 1 * j.val = j.val; omega
  rw [he]

theorem read_b2 (c : Dev nD) (t : Fin cfg0.N) (j : Fin 64) :
    iblk m c 4 t (ix1 j) = V m c main_arg4 (ix1 j) := by
  show V m c main_arg4 (((cfg0.win 4).blk t).view.emb (ix1 j)) = V m c main_arg4 (ix1 j)
  obtain ⟨-, -, -, -, -, -, -, e0, -⟩ := index_maps t
  have he : ((cfg0.win 4).blk t).view.emb (ix1 j) = ix1 j := by
    funext a; apply Fin.ext
    match a with
    | ⟨0, _⟩ => show win0_4.index t (0 : Fin 1) * 64 + 1 * j.val = j.val; omega
  rw [he]

/-! ## What a point writes back, the cover, the whole array -/

/-- Point `t` writes back block `t` of `whole`. -/
theorem flushed_eq (c : Dev nD) (t : Fin cfg0.N) :
    (dats m 0 c).flushed 5 t = ((cfg0.win 5).blk t).view.read (Elt Ideal) (whole m c) := by
  rw [Cert.KernelIdeal.Value.flushed5]
  unfold out0_5
  rw [View.canon_unit_zero off2]
  simp only [View.ld_unit_zero (S := S5000x64) off2, View.ld_unit_zero (S := S64x256) off2, View.ld_unit_zero (S := S256) off1,
    View.ld_unit_zero (S := S256x64) off2, View.ld_unit_zero (S := S64) off1]
  obtain ⟨-, -, -, -, -, -, -, -, f0, f1⟩ := index_maps t
  funext y
  obtain ⟨p, q, rfl⟩ : ∃ (p : Fin 5000) (q : Fin 64), y = ix2 p q := ⟨y 0, y 1, eq_ix2 y⟩
  show k0_pay1 (iblk m c 0 t) (iblk m c 1 t) (iblk m c 2 t) (iblk m c 3 t) (iblk m c 4 t) (ix2 p q)
    = whole m c (((cfg0.win 5).blk t).view.emb (ix2 p q))
  refine (Body.pay_apply _ _ _ _ _ p q).trans ?_
  have h0 : ((((cfg0.win 5).blk t).view.emb (ix2 p q)) 0).val = t.val * 5000 + p.val := by
    show win0_5.index t (0 : Fin 2) * 5000 + 1 * p.val = _; omega
  have h1 : ((((cfg0.win 5).blk t).view.emb (ix2 p q)) 1).val = q.val := by
    show win0_5.index t (1 : Fin 2) * 64 + 1 * q.val = _; omega
  unfold whole
  refine layersAt_congr (fun l => read_rows m c t p l _ h0) (fun l k => read_w1 m c t l k) (fun k => read_b1 m c t k)
    (fun k => ?_) ?_
  · rw [read_w2 m c t k q]
    exact congrArg _ (congrArg (ix2 k) (Fin.ext h1.symm))
  · rw [read_b2 m c t q]
    exact congrArg _ (congrArg ix1 (Fin.ext h1.symm))

/-- An index of the output array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v16).slice (win0_5.rect t)).set ↔ _
  rw [View.set_slice_whole, Rect.mem_set_unit]
  exact Iff.rfl

/-- The 20 row blocks cover the output: row `r` is in the block of point `r / 5000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- After the run the output array is `whole` of the arrays the region found. -/
theorem final (c : Dev nD) : (dats m 0 c).arrAt 5 cfg0.N = whole m c :=
  (dats m 0 c).arrAt_eq_of_cover 5 (whole m c) (fun t _ => flushed_eq m c t) cover

end Cert.Gin.Blocks

end
-- ==== Proof.GinEntry.lean ====
/-
  What the region finds in its first operand's array: the host lines before the kernel launch leave there the aggregated
  features — the features (times the constant one) with every edge's source row added into its destination row, the ids
  first passed through the wrap of negative ids.
-/
import proofs.«140478_j14053132992699_2_alg».proof.Proof.Gen.KernelIdeal.Frame
import Idealize.ShloMosaic.Lib.StableHlo.Run
import Idealize.ShloMosaic.PureOps.Ideal

noncomputable section

namespace Cert.Gin.Entry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The aggregated features as the kernel's host lines compute them, of the features and the two id arrays. -/
def aggregated (x0 : FVec Ideal S100000x64 .f32) (x5 x6 : IVec S1600000 32) : FVec Ideal S100000x64 .f32 :=
  Host.scatterAdd scatter_S100000x64_S1600000x1_S1600000x64_1_0_0_1
    (mulf (broadcastInDim S100000x64 ![] bcast_S_S100000x64 (constant (F := Ideal) S_ .f32 0x3F800000#32)) x0)
    (broadcastInDim S1600000x1 ![0] bcast_S1600000_S1600000x1_0
      (select (cmpi .slt x6 (broadcastInDim S1600000 ![] bcast_S_S1600000 (constantI S_ 32 0#32)))
        (addi x6 (broadcastInDim S1600000 ![] bcast_S_S1600000 (constantI S_ 32 100000#32))) x6))
    (Host.gather gather_S100000x64_S1600000x1_S1600000x64_1_0_n_n_0_1_164 x0
      (broadcastInDim S1600000x1 ![0] bcast_S1600000_S1600000x1_0
        (select (cmpi .slt x5 (broadcastInDim S1600000 ![] bcast_S_S1600000 (constantI S_ 32 0#32)))
          (addi x5 (broadcastInDim S1600000 ![] bcast_S_S1600000 (constantI S_ 32 100000#32))) x5)))

set_option maxHeartbeats 2000000 in
/-- At region entry the first operand's array holds the aggregated features of the launch contents. -/
theorem entry_aggregated (c : Dev nD) :
    (V m c main_v15 : S100000x64.Idx → EReal)
      = aggregated (m ((c : Thread nD τ).loc main_arg0)) (m ((c : Thread nD τ).loc main_arg5)) (m ((c : Thread nD τ).loc main_arg6)) := by
  unfold aggregated
  dsimp only [V, hostOps0]
  after_results

end Cert.Gin.Entry

end
-- ==== Proof.GinIndex.lean ====
/-
  Two facts about the sparse stage of a GIN layer that hold of whole arrays, whatever the edges are.

  * A node id that is not negative is left alone by the wrap "a negative id counts from the end" (`id < 0 ? id + n : id`).
  * An accumulating scatter into an array `x` is `x` plus the same scatter into zeros: on the extended reals the value at
    an index is `x i` plus the sum of the updates landing there, and `0 + s = s` whatever `s` is (no finiteness needed).
-/
import proofs.«140478_j14053132992699_2_alg».proof.Proof.LibRowOps
import Idealize.ShloMosaic.Lib.Affine

noncomputable section

open scoped BigOperators

namespace Cert.Gin

open Idealize.ShloMosaic Idealize.ShloMosaic.ValueIdx Idealize.ShloMosaic.RowOps

/-- Ids that are all `≥ 0` (read signed) pass the wrap of negative ids unchanged, whatever the extent `n` added. -/
theorem select_wrap_of_nonneg {s : Shape} (h : (⟨0, ![]⟩ : Shape).BroadcastsInDim s (![] : Fin 0 → Fin s.rank)) (n : BitVec 32)
    (x : IVec s 32) (hx : ∀ e, (0#32).toInt ≤ (x e).toInt) :
    select (cmpi .slt x (broadcastInDim s ![] h (constantI (⟨0, ![]⟩ : Shape) 32 0#32)))
      (addi x (broadcastInDim s ![] h (constantI (⟨0, ![]⟩ : Shape) 32 n))) x = x := by
  funext e
  unfold select cmpi
  rw [broadcastInDim_scalar_apply]
  show Scalar.select (IntOp.cmpi .slt (x e) 0#32) _ _ = x e
  unfold Scalar.select
  rw [if_neg]
  intro hc
  exact absurd (IntOp.cmpi_slt.1 hc) (not_lt.2 (hx e))

/-- The accumulating scatter into `x` is `x` plus the accumulating scatter into the zero array. -/
theorem scatterAdd_eq_add_scatterAdd_zero {s si su : Shape} {w : Nat} (d : ScatterDims s si su)
    (hz : (⟨0, ![]⟩ : Shape).BroadcastsInDim s (![] : Fin 0 → Fin s.rank))
    (x : FVec Ideal s .f32) (idx : IVec si w) (upd : FVec Ideal su .f32) :
    Host.scatterAdd d x idx upd
      = addf x (Host.scatterAdd d (broadcastInDim s ![] hz (constant (F := Ideal) (⟨0, ![]⟩ : Shape) .f32 0x00000000#32)) idx upd) := by
  funext i
  rw [addf_apply]
  unfold Host.scatterAdd
  rw [Ideal.hostScatterAdd_def, Ideal.hostScatterAdd_def]
  unfold Ideal.hostScatterAdd
  rw [broadcastInDim_scalar_apply, constant_apply, Ideal.ofBits_zero_f32, zero_add]

end Cert.Gin

end
-- ==== Proof.GinAggregate.lean ====
/-
  The two programs aggregate alike when no destination id is negative. The kernel's host lines add every edge's source row
  into the features themselves, the destination ids first passed through the wrap of negative ids; the reference adds the
  edges' source rows into zeros, with the destination ids as given, and then adds the features. With every destination id
  `≥ 0` the wrap changes nothing, and a scatter into `x` is `x` plus the scatter into zeros.
-/
import proofs.«140478_j14053132992699_2_alg».proof.Proof.GinEntry
import proofs.«140478_j14053132992699_2_alg».proof.Proof.GinIndex
import proofs.«140478_j14053132992699_2_alg».proof.Proof.Gen.ReferenceIdeal.Read

noncomputable section

namespace Cert.Gin.Aggregate

open Idealize.ShloMosaic Cert.Gin

/-- The kernel's aggregated features are the reference's (`val_main_v12`) when every destination id is `≥ 0`. -/
theorem aggregated_eq (x0 : FVec Ideal Cert.KernelIdeal.S100000x64 .f32) (x5 x6 : IVec Cert.KernelIdeal.S1600000 32)
    (h6 : ∀ e, (0#32).toInt ≤ (x6 e).toInt) :
    Cert.Gin.Entry.aggregated x0 x5 x6 = Cert.ReferenceIdeal.Read.val_main_v12 (F := Ideal) x0 x5 x6 := by
  unfold Cert.Gin.Entry.aggregated
  rw [select_wrap_of_nonneg Cert.KernelIdeal.Gen.bcast_S_S1600000 100000#32 x6 h6,
    scatterAdd_eq_add_scatterAdd_zero _ Cert.KernelIdeal.Gen.bcast_S_S100000x64]
  rfl

end Cert.Gin.Aggregate

end
-- ==== Proof.GinRef.lean ====
/-
  The reference's result, read at an index: from its aggregated features on (the array `val_main_v12`: the features plus the
  sum of the neighbours' features) it is the two dense stages `layersAt` — a `dot_general`, the bias made a row and
  broadcast to every row, the clamp at zero, a second `dot_general` and bias.
-/
import proofs.«140478_j14053132992699_2_alg».proof.Proof.Gen.ReferenceIdeal.Read
import proofs.«140478_j14053132992699_2_alg».proof.Proof.GinLayers

noncomputable section

open scoped BigOperators

namespace Cert.Gin.Ref

open Cert.ReferenceIdeal Cert.ReferenceIdeal.Gen Cert.ReferenceIdeal.Read
open Idealize.ShloMosaic Idealize.ShloMosaic.ValueIdx Cert.Gin

/-- Entry `(r, j)` of the reference's result is `layersAt` of its aggregated features and the four parameters. -/
theorem result_apply (x0 : FVec Ideal S100000x64 .f32) (x1 : FVec Ideal S64x256 .f32) (x2 : FVec Ideal S256 .f32)
    (x3 : FVec Ideal S256x64 .f32) (x4 : FVec Ideal S64 .f32) (x5 x6 : IVec S1600000 32) (r : Fin 100000) (j : Fin 64) :
    val_main_v21 (F := Ideal) x0 x1 x2 x3 x4 x5 x6 (ix2 r j)
      = layersAt (val_main_v12 (F := Ideal) x0 x5 x6) x1 x2 x3 x4 r j := by
  have e1 : ∀ (k : Fin 256) (l : Fin 64), lidx_main_v13 (lidx_main_v18 (ix2 r j) k) l = ix2 r l := fun k l =>
    funext fun a => by match a with | ⟨0, _⟩ => rfl | ⟨1, _⟩ => rfl
  have e2 : ∀ (k : Fin 256) (l : Fin 64), ridx_main_v13 (lidx_main_v18 (ix2 r j) k) l = ix2 l k := fun k l =>
    funext fun a => by match a with | ⟨0, _⟩ => rfl | ⟨1, _⟩ => rfl
  have e3 : ∀ k : Fin 256, idx_main_v14 (idx_main_v15 (lidx_main_v18 (ix2 r j) k)) = ix1 k := fun k =>
    funext fun a => by match a with | ⟨0, _⟩ => rfl
  have e4 : ∀ k : Fin 256, ridx_main_v18 (ix2 r j) k = ix2 k j := fun k =>
    funext fun a => by match a with | ⟨0, _⟩ => rfl | ⟨1, _⟩ => rfl
  have e5 : idx_main_v19 (idx_main_v20 (ix2 r j)) = ix1 j :=
    funext fun a => by match a with | ⟨0, _⟩ => rfl
  rw [val_main_v21_apply, val_main_v18_apply, val_main_v20_apply, val_main_v19_apply, e5]
  unfold layersAt
  refine congrArg₂ (· + ·) (Finset.sum_congr rfl fun k _ => ?_) rfl
  rw [val_main_v17_apply, val_main_v16_apply, val_main_v13_apply, val_main_v15_apply, val_main_v14_apply,
    val_main_call0_v0_apply, val_main_call0_cst_apply, e3, e4]
  simp only [e1, e2]
  rfl

end Cert.Gin.Ref

end
-- ==== Proof.GinPre.lean ====
/-
  What the precondition says of the destination ids: its last conjunct is "every destination id is `≥ 0`", a
  reduction by `and` of the comparisons, and the precondition states that the whole conjunction is `1`.
-/
import proofs.«140478_j14053132992699_2_alg».proof.Pre_finite_inputs
import proofs.«140478_j14053132992699_2_alg».proof.Proof.LibRowOps
import Idealize.ShloMosaic.Lib.ReduceAll

noncomputable section

namespace Cert.Gin

open Idealize.ShloMosaic Idealize.ShloMosaic.ValueIdx Idealize.ShloMosaic.RowOps Cert.Pre_finite_inputs

variable [Cert.Pre_finite_inputs.Facts]
open Cert.Pre_finite_inputs.Facts

instance : Subsingleton S_.Idx := ⟨fun _ _ => funext fun d => d.elim0⟩

/-- Under the precondition every destination id, read signed, is at least zero. -/
theorem dst_nonneg (x0 : FVec Ideal S100000x64 .f32) (x1 : FVec Ideal S64x256 .f32) (x2 : FVec Ideal S256 .f32)
    (x3 : FVec Ideal S256x64 .f32) (x4 : FVec Ideal S64 .f32) (x5 x6 : IVec S1600000 32)
    (h : Cert.Pre_finite_inputs.fn (F := Ideal) x0 x1 x2 x3 x4 x5 x6 = fun _ => 1#1) (e : S1600000.Idx) :
    (0#32).toInt ≤ (x6 e).toInt := by
  have h0 := congrFun h ix0
  dsimp only [fn, fn_part1] at h0
  change IntOp.andi _ _ = 1#1 at h0
  have h1 := (IntOp.andi_eq_one.1 h0).2
  have h2 := Host.reduce_andi_all _ _ _ _ _ h1 e
  change IntOp.cmpi .sge (x6 e) _ = 1#1 at h2
  rw [broadcastInDim_scalar_apply] at h2
  exact IntOp.cmpi_sge.1 h2

end Cert.Gin

end
-- ==== Proof.lean ====
/-
  A GIN layer: aggregate each node's in-neighbours' features onto its own, then two dense stages with a clamp at zero
  between them, `relu (agg · W1 + b1) · W2 + b2`, for 100000 nodes, 1600000 edges, 64 features and 256 hidden units.

  The kernel's program aggregates on the host by an accumulating scatter INTO the features (destination ids first passed
  through the wrap "a negative id counts from the end") and runs the dense stages in a kernel over 20 blocks of 5000 rows; the
  reference scatters into zeros with the destination ids as given, adds the features, and applies the dense stages to the
  whole array. On the extended reals:

  * every destination id being `≥ 0` (the precondition's last conjunct), the wrap changes nothing, and a scatter into `x` is
    `x` plus the scatter into zeros (`0 + s = s`), so both programs form the same aggregated array;
  * an entry of the dense stages reads one row of the aggregated array, so the kernel's 20 row blocks, which tile the rows, are
    the blocks of the dense stages of the whole array; the matrix products, on both sides, are the same sums in the same order
    (narrowing an operand to bf16 is the identity on extended reals).

  No finiteness is used. The three frames are the generated ones; the idealization rewrote nothing.
-/
import proofs.«140478_j14053132992699_2_alg».proof.Defs
import proofs.«140478_j14053132992699_2_alg».proof.Proof.Gen.Kernel
import proofs.«140478_j14053132992699_2_alg».proof.Proof.Gen.Kernel.Skeleton
import proofs.«140478_j14053132992699_2_alg».proof.Proof.Gen.Kernel.Launch
import proofs.«140478_j14053132992699_2_alg».proof.Proof.Gen.Kernel.Points
import proofs.«140478_j14053132992699_2_alg».proof.Proof.Gen.Kernel.Frame
import proofs.«140478_j14053132992699_2_alg».proof.Proof.Gen.KernelIdeal
import proofs.«140478_j14053132992699_2_alg».proof.Proof.Gen.KernelIdeal.Skeleton
import proofs.«140478_j14053132992699_2_alg».proof.Proof.Gen.KernelIdeal.Launch
import proofs.«140478_j14053132992699_2_alg».proof.Proof.Gen.KernelIdeal.Points
import proofs.«140478_j14053132992699_2_alg».proof.Proof.Gen.KernelIdeal.Frame
import proofs.«140478_j14053132992699_2_alg».proof.Proof.Gen.ReferenceIdeal
import proofs.«140478_j14053132992699_2_alg».proof.Proof.Gen.Pre_finite_inputs
import proofs.«140478_j14053132992699_2_alg».proof.Proof.Gen.KernelIdeal.Value
import proofs.«140478_j14053132992699_2_alg».proof.Proof.Gen.ReferenceIdeal.Run
import proofs.«140478_j14053132992699_2_alg».proof.Proof.Gen.ReferenceIdeal.Read
import proofs.«140478_j14053132992699_2_alg».proof.Proof.GinBlocks
import proofs.«140478_j14053132992699_2_alg».proof.Proof.GinAggregate
import proofs.«140478_j14053132992699_2_alg».proof.Proof.GinRef
import proofs.«140478_j14053132992699_2_alg».proof.Proof.GinPre
import Idealize.ShloMosaic.Adequacy
import Idealize.ShloMosaic.Init

noncomputable section

namespace Cert.Proof

open Idealize.ShloMosaic Idealize.SL.Sem Idealize.ShloMosaic.ValueIdx Idealize.ShloMosaic.TcCoe

/-- Under the precondition the reference's result, of the kernel's launch contents, is the array the kernel's run leaves:
    the dense stages of the one aggregated array. -/
theorem result_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) = fun _ => 1#1) :
    Cert.ReferenceIdeal.Read.val_main_v21 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      = Cert.Gin.Blocks.whole m c := by
  funext i
  obtain ⟨r, j, rfl⟩ : ∃ (r : Fin 100000) (j : Fin 64), i = ix2 r j := ⟨i 0, i 1, eq_ix2 i⟩
  rw [Cert.Gin.Ref.result_apply]
  unfold Cert.Gin.Blocks.whole
  rw [Cert.KernelIdeal.Gen.V_main_arg1, Cert.KernelIdeal.Gen.V_main_arg2, Cert.KernelIdeal.Gen.V_main_arg3,
    Cert.KernelIdeal.Gen.V_main_arg4, Cert.Gin.Entry.entry_aggregated,
    Cert.Gin.Aggregate.aggregated_eq _ _ _ (Cert.Gin.dst_nonneg _ _ _ _ _ _ _ hpre)]

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the dense stages of the aggregated array of the (agreeing) launch contents. -/
theorem algebraic : Cert.algebraic_KernelIdeal_ReferenceIdeal := by
  intro m ρ m' ρ' hpre hagree
  refine ⟨fun c => Cert.Gin.Blocks.whole m c, ?_, ?_⟩
  · exact (θ_run Cert.KernelIdeal.defs _ _).mono
      (fun r h c => ⟨(h c).1.trans (Cert.Gin.Blocks.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    rw [Cert.ReferenceIdeal.Read.val_main_v21_eq, a0, a1, a2, a3, a4, a5, a6]
    exact result_eq m c (hpre c)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
